-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2000000 : Shape := ⟨1, ![2000000]⟩
abbrev S1000000 : Shape := ⟨1, ![1000000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S1000000 : S_.BroadcastsInDim S1000000 (![] : Fin 0 → Fin S1000000.rank)
  reducesTo_S1000000_S_d0 : S1000000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg11 : FVec F S128x16 .f32) (main_arg12 : FVec F S16 .f32) (main_v33 : IVec S_ 1) : IVec S_ 1 :=
  let main_v34 : FVec F S128x16 .f32 := Host.absf main_arg11
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg12
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg8 : FVec F S128x128 .f32) (main_arg9 : FVec F S128 .f32) (main_arg10 : FVec F S128x16 .f32) (main_arg11 : FVec F S128x16 .f32) (main_arg12 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg10
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg11 main_arg12 main_v33

def fn {F : FTy → Type} [FloatOps F] (main_arg0 : FVec F S500000x128 .f32) (main_arg1 : IVec S2000000 32) (main_arg2 : IVec S2000000 32) (main_arg3 : FVec F S2000000 .f32) (main_arg4 : IVec S1000000 32) (main_arg5 : IVec S1000000 32) (main_arg6 : FVec F S1000000 .f32) (main_arg7 : FVec F S128x128 .f32) (main_arg8 : FVec F S128x128 .f32) (main_arg9 : FVec F S128 .f32) (main_arg10 : FVec F S128x16 .f32) (main_arg11 : FVec F S128x16 .f32) (main_arg12 : FVec F S16 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S2000000 .f32 := Host.absf main_arg3
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S1000000 .f32 := Host.absf main_arg6
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_v13 main_v16
-- ==== Kernel.lean ====
abbrev S500000x128 : Shape := ⟨2, ![500000, 128]⟩
abbrev S2000000 : Shape := ⟨1, ![2000000]⟩
abbrev S1000000 : Shape := ⟨1, ![1000000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000x128 : Shape := ⟨2, ![100000, 128]⟩
abbrev S_ : Shape := ⟨0, ![]⟩
abbrev S2000000x1 : Shape := ⟨2, ![2000000, 1]⟩
abbrev S2000000x128 : Shape := ⟨2, ![2000000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S20000x128 : Shape := ⟨2, ![20000, 128]⟩
abbrev S1000000x1 : Shape := ⟨2, ![1000000, 1]⟩
abbrev S1000000x128 : Shape := ⟨2, ![1000000, 128]⟩
abbrev S20000 : Shape := ⟨1, ![20000]⟩
abbrev S20000x1 : Shape := ⟨2, ![20000, 1]⟩
abbrev S1x16 : Shape := ⟨2, ![1, 16]⟩
abbrev S20000x16 : Shape := ⟨2, ![20000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 75
  | .vmem => 18
  | .smem => 0
  | _ => 0

abbrev bufTy : (tb : Table) → Fin (tcTables nBuf tb) → BufTy
  | .hbm, ⟨0, _⟩ => ⟨S500000x128, .f32⟩
  | .hbm, ⟨1, _⟩ => ⟨S2000000, .i32⟩
  | .hbm, ⟨2, _⟩ => ⟨S2000000, .i32⟩
  | .hbm, ⟨3, _⟩ => ⟨S2000000, .f32⟩
  | .hbm, ⟨4, _⟩ => ⟨S1000000, .i32⟩
  | .hbm, ⟨5, _⟩ => ⟨S1000000, .i32⟩
  | .hbm, ⟨6, _⟩ => ⟨S1000000, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S128x16, .f32⟩
  | .hbm, ⟨12, _⟩ => ⟨S16, .f32⟩
  | .hbm, ⟨13, _⟩ => ⟨S100000x128, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x128, .f32⟩
  | .hbm, ⟨23, _⟩ => ⟨S2000000x1, .f32⟩
  | .hbm, ⟨24, _⟩ => ⟨S2000000x128, .f32⟩
  | .hbm, ⟨25, _⟩ => ⟨S2000000x128, .f32⟩
  | .hbm, ⟨26, _⟩ => ⟨S_, .f32⟩
  | .hbm, ⟨27, _⟩ => ⟨S100000x128, .f32⟩
  | .hbm, ⟨28, _⟩ => ⟨S2000000x1, .i32⟩
  | .hbm, ⟨29, _⟩ => ⟨S100000x128, .f32⟩
  | .hbm, ⟨30, _⟩ => ⟨S_, .f32⟩
  | .hbm, ⟨31, _⟩ => ⟨S2000000, .f32⟩
  | .hbm, ⟨32, _⟩ => ⟨S_, .f32⟩
  | .hbm, ⟨33, _⟩ => ⟨S100000, .f32⟩
  | .hbm, ⟨34, _⟩ => ⟨S2000000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S20000x128, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x128, .f32⟩
  | .hbm, ⟨54, _⟩ => ⟨S1000000x1, .f32⟩
  | .hbm, ⟨55, _⟩ => ⟨S1000000x128, .f32⟩
  | .hbm, ⟨56, _⟩ => ⟨S1000000x128, .f32⟩
  | .hbm, ⟨57, _⟩ => ⟨S_, .f32⟩
  | .hbm, ⟨58, _⟩ => ⟨S20000x128, .f32⟩
  | .hbm, ⟨59, _⟩ => ⟨S1000000x1, .i32⟩
  | .hbm, ⟨60, _⟩ => ⟨S20000x128, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S20000, .f32⟩
  | .hbm, ⟨65, _⟩ => ⟨S1000000x1, .i32⟩
  | .hbm, ⟨66, _⟩ => ⟨S20000, .f32⟩
  | .hbm, ⟨67, _⟩ => ⟨S_, .f32⟩
  | .hbm, ⟨68, _⟩ => ⟨S20000, .f32⟩
  | .hbm, ⟨69, _⟩ => ⟨S20000, .f32⟩
  | .hbm, ⟨70, _⟩ => ⟨S20000x1, .f32⟩
  | .hbm, ⟨71, _⟩ => ⟨S20000x128, .f32⟩
  | .hbm, ⟨72, _⟩ => ⟨S20000x128, .f32⟩
  | .hbm, ⟨73, _⟩ => ⟨S1x16, .f32⟩
  | .hbm, ⟨74, _⟩ => ⟨S20000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x16, .f32⟩
  | .local _ .vmem, ⟨14, _⟩ => ⟨S128x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S500000x128_S100000x128_0_0 : S500000x128.Slices ![0, 0] S100000x128
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x128_0_1 : S2000000x1.BroadcastsInDim S2000000x128 (![0, 1] : Fin 2 → Fin S2000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S100000x128_S20000x128_0_0 : S100000x128.Slices ![0, 0] S20000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S500000x128_S2000000x1_S2000000x128_1_0_n_n_0_1_1128_wf : GatherDims.WF S500000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  dot_S5000x128_S128x128_S5000x128_1_0_0_1_n_n_wf : DotDims.WF S5000x128 S128x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S20000x128.size a
  hwx1_1 : ∀ i : grid1.Coords, EltTy.bits .f32 = 32 ∨ (Rect.block (s := S20000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S20000x16.size a
  hwx1_5 : ∀ i : grid1.Coords, EltTy.bits .f32 = 32 ∨ (Rect.block (s := S20000x16) S5000x16.size (cc1_transform_5 i) (hinb1_5 i)).WholeWords (EltTy.packing .f32)

variable [Facts₀]

def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x128 : Shape := ⟨2, ![500000, 128]⟩
abbrev S2000000 : Shape := ⟨1, ![2000000]⟩
abbrev S1000000 : Shape := ⟨1, ![1000000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000x128 : Shape := ⟨2, ![100000, 128]⟩
abbrev S_ : Shape := ⟨0, ![]⟩
abbrev S2000000x1 : Shape := ⟨2, ![2000000, 1]⟩
abbrev S2000000x128 : Shape := ⟨2, ![2000000, 128]⟩
abbrev S100000 : Shape := ⟨1, ![100000]⟩
abbrev S100000x1 : Shape := ⟨2, ![100000, 1]⟩
abbrev S1x128 : Shape := ⟨2, ![1, 128]⟩
abbrev S20000x128 : Shape := ⟨2, ![20000, 128]⟩
abbrev S1000000x1 : Shape := ⟨2, ![1000000, 1]⟩
abbrev S1000000x128 : Shape := ⟨2, ![1000000, 128]⟩
abbrev S20000 : Shape := ⟨1, ![20000]⟩
abbrev S20000x1 : Shape := ⟨2, ![20000, 1]⟩
abbrev S20000x16 : Shape := ⟨2, ![20000, 16]⟩
abbrev S1x16 : Shape := ⟨2, ![1, 16]⟩

abbrev nBuf : Space → Nat
  | .hbm => 101
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2000000, .i32⟩
  | .hbm, ⟨2, _⟩ => ⟨S2000000, .i32⟩
  | .hbm, ⟨3, _⟩ => ⟨S2000000, .f32⟩
  | .hbm, ⟨4, _⟩ => ⟨S1000000, .i32⟩
  | .hbm, ⟨5, _⟩ => ⟨S1000000, .i32⟩
  | .hbm, ⟨6, _⟩ => ⟨S1000000, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S128x16, .f32⟩
  | .hbm, ⟨12, _⟩ => ⟨S16, .f32⟩
  | .hbm, ⟨13, _⟩ => ⟨S100000x128, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x128, .f32⟩
  | .hbm, ⟨23, _⟩ => ⟨S2000000x1, .f32⟩
  | .hbm, ⟨24, _⟩ => ⟨S2000000x128, .f32⟩
  | .hbm, ⟨25, _⟩ => ⟨S2000000x128, .f32⟩
  | .hbm, ⟨26, _⟩ => ⟨S_, .f32⟩
  | .hbm, ⟨27, _⟩ => ⟨S100000x128, .f32⟩
  | .hbm, ⟨28, _⟩ => ⟨S2000000x1, .i32⟩
  | .hbm, ⟨29, _⟩ => ⟨S100000x128, .f32⟩
  | .hbm, ⟨30, _⟩ => ⟨S_, .f32⟩
  | .hbm, ⟨31, _⟩ => ⟨S2000000, .f32⟩
  | .hbm, ⟨32, _⟩ => ⟨S_, .f32⟩
  | .hbm, ⟨33, _⟩ => ⟨S100000, .f32⟩
  | .hbm, ⟨34, _⟩ => ⟨S2000000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S20000x128, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x128, .f32⟩
  | .hbm, ⟨61, _⟩ => ⟨S1000000x1, .f32⟩
  | .hbm, ⟨62, _⟩ => ⟨S1000000x128, .f32⟩
  | .hbm, ⟨63, _⟩ => ⟨S1000000x128, .f32⟩
  | .hbm, ⟨64, _⟩ => ⟨S_, .f32⟩
  | .hbm, ⟨65, _⟩ => ⟨S20000x128, .f32⟩
  | .hbm, ⟨66, _⟩ => ⟨S1000000x1, .i32⟩
  | .hbm, ⟨67, _⟩ => ⟨S20000x128, .f32⟩
  | .hbm, ⟨68, _⟩ => ⟨S_, .f32⟩
  | .hbm, ⟨69, _⟩ => ⟨S1000000, .f32⟩
  | .hbm, ⟨70, _⟩ => ⟨S_, .f32⟩
  | .hbm, ⟨71, _⟩ => ⟨S20000, .f32⟩
  | .hbm, ⟨72, _⟩ => ⟨S1000000x1, .i32⟩
  | .hbm, ⟨73, _⟩ => ⟨S20000, .f32⟩
  | .hbm, ⟨74, _⟩ => ⟨S_, .f32⟩
  | .hbm, ⟨75, _⟩ => ⟨S20000, .f32⟩
  | .hbm, ⟨76, _⟩ => ⟨S20000, .f32⟩
  | .hbm, ⟨77, _⟩ => ⟨S20000x1, .f32⟩
  | .hbm, ⟨78, _⟩ => ⟨S20000x128, .f32⟩
  | .hbm, ⟨79, _⟩ => ⟨S20000x128, .f32⟩
  | .hbm, ⟨80, _⟩ => ⟨S20000x16, .f32⟩
  | .hbm, ⟨81, _⟩ => ⟨S20000x16, .f32⟩
  | .hbm, ⟨82, _⟩ => ⟨S20000x16, .f32⟩
  | .hbm, ⟨83, _⟩ => ⟨S1x16, .f32⟩
  | .hbm, ⟨84, _⟩ => ⟨S20000x16, .f32⟩
  | .hbm, ⟨85, _⟩ => ⟨S20000x16, .f32⟩
  | .hbm, ⟨86, _⟩ => ⟨S_, .f32⟩
  | .hbm, ⟨87, _⟩ => ⟨S20000, .f32⟩
  | .hbm, ⟨88, _⟩ => ⟨S_, .f32⟩
  | .hbm, ⟨89, _⟩ => ⟨S20000, .f32⟩
  | .hbm, ⟨90, _⟩ => ⟨S20000, .f32⟩
  | .hbm, ⟨91, _⟩ => ⟨S20000x1, .f32⟩
  | .hbm, ⟨92, _⟩ => ⟨S20000x16, .f32⟩
  | .hbm, ⟨93, _⟩ => ⟨S20000x16, .f32⟩
  | .hbm, ⟨94, _⟩ => ⟨S20000x16, .f32⟩
  | .hbm, ⟨95, _⟩ => ⟨S_, .f32⟩
  | .hbm, ⟨96, _⟩ => ⟨S20000, .f32⟩
  | .hbm, ⟨97, _⟩ => ⟨S20000x1, .f32⟩
  | .hbm, ⟨98, _⟩ => ⟨S20000x1, .f32⟩
  | .hbm, ⟨99, _⟩ => ⟨S20000x16, .f32⟩
  | .hbm, ⟨100, _⟩ => ⟨S20000x16, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_call1_cst_0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_cst_1 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_v59 : Ref sig .tc := ⟨.hbm, 100, rfl⟩

abbrev nD : Nat := 1
abbrev τ : Topo := Topo.v7x

variable {F : FTy → Type} [FloatOps F]

class Facts₀ : Prop where
  slices_S500000x128_S100000x128_0_0 : S500000x128.Slices ![0, 0] S100000x128
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x128_0_1 : S2000000x1.BroadcastsInDim S2000000x128 (![0, 1] : Fin 2 → Fin S2000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S20000x128_0_0 : S100000x128.Slices ![0, 0] S20000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S16_S1x16_1 : S16.BroadcastsInDim S1x16 (![1] : Fin 1 → Fin S1x16.rank)
  bcast_S1x16_S20000x16_0_1 : S1x16.BroadcastsInDim S20000x16 (![0, 1] : Fin 2 → Fin S20000x16.rank)
  reducesTo_S20000x16_S20000_d1 : S20000x16.ReducesTo [1] S20000
  h_S_ : 0 < S_.numel
  bcast_S20000x1_S20000x16_0_1 : S20000x1.BroadcastsInDim S20000x16 (![0, 1] : Fin 2 → Fin S20000x16.rank)
  gather_S500000x128_S2000000x1_S2000000x128_1_0_n_n_0_1_1128_wf : GatherDims.WF S500000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S20000x128_S128x16_S20000x16_1_0_0_1_n_n_wf : DotDims.WF S20000x128 S128x16 S20000x16 [1] [0] [0] [1] [] []

variable [Facts₀]

def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x128_S128x16_S20000x16_1_0_0_1_n_n : DotDims S20000x128 S128x16 S20000x16 where
  lhsContracting := [1]
  rhsContracting := [0]
  lhsNonContracting := [0]
  rhsNonContracting := [1]
  lhsBatch := []
  rhsBatch := []
  wf := dot_S20000x128_S128x16_S20000x16_1_0_0_1_n_n_wf

class Facts : Prop extends Facts₀ where

variable [Facts]
-- ==== Proof.Spec.lean ====
/-
  The two layers of the network, one entry at a time, on the extended reals.

  A layer combines a row `a` of the destination nodes' own features and the row `b` of their aggregated
  neighbour features with two weight matrices and a bias: entry `j` of the combined row is
  `(∑ k, a k * W₁ k j + ∑ k, b k * W₂ k j) + bias j` (`dense`, stated for one column of each weight matrix).
  The first layer ends in `relu` (the maximum with zero). The second ends in the logarithm of the softmax of
  the row: with `M` the maximum of the row's entries (the fold of `max` from negative infinity), entry `j` is
  `(d j - M) - log (∑ k, exp (d k - M))`. Float literals stay the words the programs print (`Ideal.ofBits`):
  the same word stands on both sides and is never evaluated.
-/
import Idealize.ShloMosaic.PureOps.Ideal

noncomputable section

namespace Cert.Spec

open Idealize.ShloMosaic
open scoped BigOperators

/-- One entry of a layer before its activation: the two products' entries and the bias, added in the programs' order. -/
def dense {K : ℕ} (a b w₁ w₂ : Fin K → EReal) (bias : EReal) : EReal :=
  (∑ k, a k * w₁ k + ∑ k, b k * w₂ k) + bias

/-- The maximum with the zero word. -/
def relu (x : EReal) : EReal := max x (Ideal.ofBits .f32 0x00000000#32)

/-- The maximum of a row: the fold of `max` over its entries from what the word of negative infinity denotes. -/
def rowMax {J : ℕ} (d : Fin J → EReal) : EReal :=
  (Finset.univ : Finset (Fin J)).fold max (Ideal.ofBits .f32 0xFF800000#32) d

/-- Entry `j` of the logarithm of the softmax of the row `d`, in the shifted form both programs compute. -/
def logSoftmax {J : ℕ} (d : Fin J → EReal) (j : Fin J) : EReal :=
  (d j - rowMax d) - Ideal.log (∑ k, Ideal.exp (d k - rowMax d))

/-- The fold of `max` is at least its starting value, so taking the maximum with that value again changes nothing. -/
theorem max_start_rowMax {J : ℕ} (d : Fin J → EReal) :
    max (Ideal.ofBits .f32 0xFF800000#32) (rowMax d) = rowMax d :=
  max_eq_right ((Finset.le_fold_max _).mpr (Or.inl le_rfl))

end Cert.Spec

end
-- ==== Proof.LibPlainProduct.lean ====
/-
  A matrix product of an m × k by a k × n array of extended reals, read at one entry, in the two spellings the
  programs use: the matrix unit's product added into a zero accumulator, and the host's general dot product with
  the plain dimension numbers (rows × contraction times contraction × columns).  Both are the sum over the
  contracted coordinate of the products of the entries; on the extended reals that sum has no rounding and no order.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

/-- The host's plain product at entry (a, b): the sum over the contracted coordinate. -/
theorem dotGeneral_plain_entry {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

/-- The matrix unit's plain product into the zero accumulator at entry (a, b): the same sum.  Both products are
    the sum over the contraction index of the operands' products, so the matrix unit's is the host's. -/
theorem matmul_plain_entry {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← dotGeneral_plain_entry prec A B a b]
  show FloatOps.matmul (DotDims.plain m k n) prec A B (constant ⟨2, ![m, n]⟩ .f32 0x00000000#32) (ix2 a b)
    = FloatOps.dotGeneral (DotDims.plain m k n) prec _ A B (ix2 a b)
  rw [Ideal.matmul_constant_zero_apply, Ideal.dotGeneral_apply]

end Cert.LibPlainProduct

end
-- ==== Proof.LibAxisMax.lean ====
/-
  The maximum along the second axis of a matrix, read at an index. A reduction by maximum of an [A, B] array along its
  second axis, started from the word of negative infinity, has at row `r` the value of the fold of `max` over the
  entries `v (r, k)` of that row, started from what that word denotes. On the extended reals `max` is commutative and
  associative, so the fold has no order.
-/
import Idealize.ShloMosaic.PureOps.Ideal.Laws
import Idealize.ShloMosaic.Lib.ValueIdx

noncomputable section

open Idealize.ShloMosaic Idealize.ShloMosaic.ValueIdx

namespace Cert.Lib.AxisMax

/-- The maximum along the second axis (the lanes) at row `r`. -/
theorem laneMax_apply {A B : ℕ} (v : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (r : Fin A) :
    multiReduction (F := Ideal) .maximumf [1] ⟨1, ![A]⟩ v 0xFF800000#32 h hφ hacc (ix1 r)
      = (Finset.univ : Finset (Fin B)).fold max (Ideal.ofBits .f32 0xFF800000#32) (fun k => v (ix2 r k)) := by
  refine (Ideal.multiReduction_maximumf_single v 0xFF800000#32 h hφ hacc (ix1 r)).trans ?_
  have hf : (v ∘ h.lift (ix1 r)) = fun k : Fin B => v (ix2 r k) := funext fun k => congrArg v (funext fun c => by
    match c with
    | ⟨0, _⟩ => exact Fin.ext rfl
    | ⟨1, _⟩ => exact Fin.ext rfl)
  exact congrArg (fun f => Finset.fold max (Ideal.ofBits .f32 0xFF800000#32) f (Finset.univ : Finset (Fin B))) hf

end Cert.Lib.AxisMax

end
-- ==== Proof.LibAxisSum.lean ====
/-
  Sums along one axis of a matrix, read at an index. A reduction by addition of an [A, B] array along its second axis,
  started from the zero word, has at `r` the value `∑ k, v (r, k)`; along its first axis it has at `c` the value
  `∑ r, v (r, c)`. On the extended reals the sum has no rounding and no order.
-/
import Idealize.ShloMosaic.PureOps.Ideal.Laws
import Idealize.ShloMosaic.Lib.ValueIdx

noncomputable section

open scoped BigOperators
open Idealize.ShloMosaic Idealize.ShloMosaic.ValueIdx

namespace Cert.Lib.AxisSum

/-- The sum along the second axis (the lanes) at row `r`. -/
theorem laneSum_apply {A B : ℕ} (v : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (r : Fin A) :
    multiReduction (F := Ideal) .add [1] ⟨1, ![A]⟩ v 0x00000000#32 h hφ hacc (ix1 r) = ∑ k : Fin B, v (ix2 r k) := by
  refine (Ideal.multiReduction_add_single v 0x00000000#32 h hφ hacc (ix1 r)).trans ?_
  refine Finset.sum_congr rfl fun k _ => congrArg v ?_
  funext c
  match c with
  | ⟨0, _⟩ => exact Fin.ext rfl
  | ⟨1, _⟩ => exact Fin.ext rfl

/-- The sum along the first axis (the rows) at column `c`. -/
theorem rowSum_apply {A B : ℕ} (v : FVec Ideal ⟨2, ![A, B]⟩ .f32)
    (h : (⟨2, ![A, B]⟩ : Shape).Reduces [0] ⟨1, ![B]⟩) (hφ : FKind.Formats .f32)
    (hacc : (0x00000000#32 : BitVec 32) = 0x00000000#32) (c : Fin B) :
    multiReduction (F := Ideal) .add [0] ⟨1, ![B]⟩ v 0x00000000#32 h hφ hacc (ix1 c) = ∑ r : Fin A, v (ix2 r c) := by
  refine (Ideal.multiReduction_add_single v 0x00000000#32 h hφ hacc (ix1 c)).trans ?_
  refine Finset.sum_congr rfl fun k _ => congrArg v ?_
  funext a
  match a with
  | ⟨0, _⟩ => exact Fin.ext rfl
  | ⟨1, _⟩ => exact Fin.ext rfl

end Cert.Lib.AxisSum

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Payload.lean ====
/-
  What each kernel body stores, read at one entry.

  Both bodies load a block of 5000 rows of the nodes' own features (`x0`) and of their aggregated neighbour features
  (`x1`), the two weight matrices (`x2`, `x3`) and the bias row (`x4`), and form the block of
  `x0 · x2 + x1 · x3 + bias`. Read at Ideal the change of float format in front of the matrix unit is the identity and
  a product into the zero accumulator is the plain sum over the contracted coordinate, so entry (p, q) of the combined
  block is `Spec.dense` of row p of `x0` and `x1`, column q of `x2` and `x3`, and entry q of the bias row.
  The first body stores the maximum of that with zero; the second the logarithm of the softmax of each row: the row
  maximum (a lane reduction from negative infinity) kept as a column and subtracted, the exponentials summed along the
  lanes (from zero), the logarithm of the sum kept as a column and subtracted.
-/
import proofs.«175145_j5119601017092_1_alg».proof.Proof.Gen.KernelIdeal.Skeleton
import proofs.«175145_j5119601017092_1_alg».proof.Proof.Spec
import proofs.«175145_j5119601017092_1_alg».proof.Proof.LibPlainProduct
import proofs.«175145_j5119601017092_1_alg».proof.Proof.LibAxisMax
import proofs.«175145_j5119601017092_1_alg».proof.Proof.LibAxisSum
import proofs.«175145_j5119601017092_1_alg».proof.Proof.LibColumn
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-! ## The first layer's block -/

/-- Entry (p, q) of a block product in front of which both operands change float format: the plain sum. -/
theorem product128_apply (y : FVec Ideal S5000x128 .f32) (w : FVec Ideal S128x128 .f32) (p : Fin 5000) (q : Fin 128) :
    matmul (F := Ideal) dot_S5000x128_S128x128_S5000x128_1_0_0_1_n_n none
        (truncf .bf16 (shapeCast S5000x128 y shapeCasts_S5000x128_S5000x128) bitsLt_bf16_f32) (truncf .bf16 w bitsLt_bf16_f32)
        (constant S5000x128 .f32 0x00000000#32) (ix2 p q)
      = ∑ k : Fin 128, y (ix2 p k) * w (ix2 k q) := by
  refine (Cert.LibPlainProduct.matmul_plain_entry (m := 5000) (k := 128) (n := 128) none _ _ p q).trans ?_
  refine Finset.sum_congr rfl fun k _ => ?_
  rw [shapeCast_self]
  rfl

/-- The bias row repeated over the block's rows reads the row's entry of the same column. -/
theorem bias128_apply (x4 : FVec Ideal S1x128 .f32) (p : Fin 5000) (q : Fin 128) :
    broadcastTo S5000x128 (shapeCast S1x128 x4 shapeCasts_S1x128_S1x128) broadcasts_S1x128_S5000x128 (ix2 p q)
      = x4 (ix2 (0 : Fin 1) q) := by
  refine (broadcastTo_1b_ab_apply (a := 5000) (b := 128) _ _ p q).trans ?_
  rw [shapeCast_self]

/-- THE FIRST BODY'S STORED BLOCK at (p, q): the combined entry, cut off below at zero. -/
theorem relu_block_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = Spec.relu (Spec.dense (fun k : Fin 128 => x0 (ix2 p k)) (fun k => x1 (ix2 p k))
          (fun k => x2 (ix2 k q)) (fun k => x3 (ix2 k q)) (x4 (ix2 (0 : Fin 1) q))) := by
  unfold k0_pay1
  rw [maximumf_apply, addf_apply, addf_apply, product128_apply, product128_apply, bias128_apply]
  rfl

/-! ## The second layer's block -/

/-- Entry (p, q) of a 5000 × 128 by 128 × 16 block product behind the change of float format: the plain sum. -/
theorem product16_apply (y : FVec Ideal S5000x128 .f32) (w : FVec Ideal S128x16 .f32) (p : Fin 5000) (q : Fin 16) :
    matmul (F := Ideal) dot_S5000x128_S128x16_S5000x16_1_0_0_1_n_n none
        (truncf .bf16 (shapeCast S5000x128 y shapeCasts_S5000x128_S5000x128) bitsLt_bf16_f32) (truncf .bf16 w bitsLt_bf16_f32)
        (constant S5000x16 .f32 0x00000000#32) (ix2 p q)
      = ∑ k : Fin 128, y (ix2 p k) * w (ix2 k q) := by
  refine (Cert.LibPlainProduct.matmul_plain_entry (m := 5000) (k := 128) (n := 16) none _ _ p q).trans ?_
  refine Finset.sum_congr rfl fun k _ => ?_
  rw [shapeCast_self]
  rfl

theorem bias16_apply (x4 : FVec Ideal S1x16 .f32) (p : Fin 5000) (q : Fin 16) :
    broadcastTo S5000x16 (shapeCast S1x16 x4 shapeCasts_S1x16_S1x16) broadcasts_S1x16_S5000x16 (ix2 p q)
      = x4 (ix2 (0 : Fin 1) q) := by
  refine (broadcastTo_1b_ab_apply (a := 5000) (b := 16) _ _ p q).trans ?_
  rw [shapeCast_self]

/-- The combined block of the second layer, before the softmax. -/
def combined16 (x0 x1 : Vec Ideal S5000x128 .f32) (x2 x3 : Vec Ideal S128x16 .f32) (x4 : Vec Ideal S1x16 .f32) :
    FVec Ideal S5000x16 .f32 :=
  addf (addf
      (matmul dot_S5000x128_S128x16_S5000x16_1_0_0_1_n_n none
        (truncf .bf16 (shapeCast S5000x128 x0 shapeCasts_S5000x128_S5000x128) bitsLt_bf16_f32) (truncf .bf16 x2 bitsLt_bf16_f32)
        (constant S5000x16 .f32 0x00000000#32))
      (matmul dot_S5000x128_S128x16_S5000x16_1_0_0_1_n_n none
        (truncf .bf16 (shapeCast S5000x128 x1 shapeCasts_S5000x128_S5000x128) bitsLt_bf16_f32) (truncf .bf16 x3 bitsLt_bf16_f32)
        (constant S5000x16 .f32 0x00000000#32)))
    (broadcastTo S5000x16 (shapeCast S1x16 x4 shapeCasts_S1x16_S1x16) broadcasts_S1x16_S5000x16)

theorem combined16_apply (x0 x1 : Vec Ideal S5000x128 .f32) (x2 x3 : Vec Ideal S128x16 .f32) (x4 : Vec Ideal S1x16 .f32)
    (p : Fin 5000) (q : Fin 16) :
    combined16 x0 x1 x2 x3 x4 (ix2 p q)
      = Spec.dense (fun k : Fin 128 => x0 (ix2 p k)) (fun k => x1 (ix2 p k))
          (fun k => x2 (ix2 k q)) (fun k => x3 (ix2 k q)) (x4 (ix2 (0 : Fin 1) q)) := by
  unfold combined16
  rw [addf_apply, addf_apply, product16_apply, product16_apply, bias16_apply]
  rfl

/-- The row maximum kept as a column and repeated over the 16 lanes. -/
def rowMaxBlock (d : FVec Ideal S5000x16 .f32) : FVec Ideal S5000x16 .f32 :=
  broadcastTo S5000x16
    (shapeCast S5000x1 (multiReduction .maximumf [1] S5000 d 0xFF800000#32 reduces_S5000x16_S5000 (.inl rfl) rfl)
      shapeCasts_S5000_S5000x1) broadcasts_S5000x1_S5000x16

theorem rowMaxBlock_apply (d : FVec Ideal S5000x16 .f32) (p : Fin 5000) (q : Fin 16) :
    rowMaxBlock d (ix2 p q) = Spec.rowMax (fun j : Fin 16 => d (ix2 p j)) := by
  unfold rowMaxBlock
  refine (Cert.Lib.Column.broadcastTo_a1_ab_apply (a := 5000) (b := 16) _ _ p q).trans ?_
  refine (Cert.Lib.Column.shapeCast_a_a1_apply (a := 5000) _ _ p (0 : Fin 1)).trans ?_
  exact Cert.Lib.AxisMax.laneMax_apply (A := 5000) (B := 16) d _ _ _ p

/-- The logarithm of the lane sum of the exponentials, kept as a column and repeated over the 16 lanes. -/
def logSumBlock (z : FVec Ideal S5000x16 .f32) : FVec Ideal S5000x16 .f32 :=
  broadcastTo S5000x16
    (log (shapeCast S5000x1 (multiReduction .add [1] S5000 (exp z) 0x00000000#32 reduces_S5000x16_S5000 (.inl rfl) rfl)
      shapeCasts_S5000_S5000x1)) broadcasts_S5000x1_S5000x16

theorem logSumBlock_apply (z : FVec Ideal S5000x16 .f32) (p : Fin 5000) (q : Fin 16) :
    logSumBlock z (ix2 p q) = Ideal.log (∑ k : Fin 16, Ideal.exp (z (ix2 p k))) := by
  unfold logSumBlock
  refine (Cert.Lib.Column.broadcastTo_a1_ab_apply (a := 5000) (b := 16) _ _ p q).trans ?_
  show Ideal.log (shapeCast S5000x1 (multiReduction .add [1] S5000 (exp z) 0x00000000#32 reduces_S5000x16_S5000 (.inl rfl) rfl)
      shapeCasts_S5000_S5000x1 (ix2 p (0 : Fin 1))) = _
  rw [Cert.Lib.Column.shapeCast_a_a1_apply (a := 5000) _ _ p (0 : Fin 1),
    Cert.Lib.AxisSum.laneSum_apply (A := 5000) (B := 16) (exp z) _ _ _ p]
  rfl

/-- The second body's stored block is the shifted logarithm of the softmax of the combined block. -/
theorem k1_pay1_eq (x0 x1 : Vec Ideal S5000x128 .f32) (x2 x3 : Vec Ideal S128x16 .f32) (x4 : Vec Ideal S1x16 .f32) :
    k1_pay1 (F := Ideal) x0 x1 x2 x3 x4
      = subf (subf (combined16 x0 x1 x2 x3 x4) (rowMaxBlock (combined16 x0 x1 x2 x3 x4)))
          (logSumBlock (subf (combined16 x0 x1 x2 x3 x4) (rowMaxBlock (combined16 x0 x1 x2 x3 x4)))) := rfl

/-- THE SECOND BODY'S STORED BLOCK at (p, q): the logarithm of the softmax of row p of the combined block. -/
theorem logsoftmax_block_apply (x0 x1 : Vec Ideal S5000x128 .f32) (x2 x3 : Vec Ideal S128x16 .f32) (x4 : Vec Ideal S1x16 .f32)
    (p : Fin 5000) (q : Fin 16) :
    k1_pay1 (F := Ideal) x0 x1 x2 x3 x4 (ix2 p q)
      = Spec.logSoftmax (fun j : Fin 16 => Spec.dense (fun k : Fin 128 => x0 (ix2 p k)) (fun k => x1 (ix2 p k))
          (fun k => x2 (ix2 k j)) (fun k => x3 (ix2 k j)) (x4 (ix2 (0 : Fin 1) j))) q := by
  rw [k1_pay1_eq, subf_apply, subf_apply, logSumBlock_apply, rowMaxBlock_apply]
  unfold Spec.logSoftmax
  have hz : ∀ k : Fin 16, (subf (combined16 x0 x1 x2 x3 x4) (rowMaxBlock (combined16 x0 x1 x2 x3 x4))) (ix2 p k)
      = combined16 x0 x1 x2 x3 x4 (ix2 p k) - Spec.rowMax (fun j : Fin 16 => combined16 x0 x1 x2 x3 x4 (ix2 p j)) :=
    fun k => by rw [subf_apply, rowMaxBlock_apply]
  simp only [hz, combined16_apply]

end Cert.KernelIdeal.Payload

end
-- ==== Proof.Blocks.lean ====
/-
  From blocks to arrays: what each grid leaves in its output array.

  Each layer's grid walks the destination rows in blocks of 5000. At block `t` the body is handed rows
  `5000 t … 5000 t + 4999` of the nodes' own features and of the aggregated neighbour features, the whole of both weight
  matrices and the bias row, and its stored block is written back to the same rows of the output array. So, if a whole
  array `G` has at every row `5000 t + p` and column `q` the layer's entry computed from the arrays the grid is entered
  with, then what block `t` writes back is block `t` of `G`; the blocks cover the output array (row `r` lies in block
  `r / 5000`), hence the output array after the grid is `G`. Stated for any contents `V` the grid is entered with.
-/
import proofs.«175145_j5119601017092_1_alg».proof.Proof.Gen.KernelIdeal.Frame
import proofs.«175145_j5119601017092_1_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The first layer's grid: 20 blocks of 5000 rows -/

/-- The printed index maps over the grid: the row-blocked windows are at block row `t`, column block 0; the weights and
    the bias row are at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5000 t + p` of the array. -/
def row0 (t : Fin cfg0.N) (p : Fin 5000) : Fin 100000 :=
  ⟨t.val * 5000 + p.val, by
    have ht : t.val < cfg0.N := t.isLt
    have hN : cfg0.N = 20 := N_0
    have hp : p.val < 5000 := p.isLt
    omega⟩

theorem own0_apply (c : Dev nD) (t : Fin cfg0.N) (p : Fin 5000) (k : Fin 128) :
    iblk0 V c 0 t (ix2 p k) = V c main_v0 (ix2 (row0 t p) k) := by
  show V c main_v0 (((cfg0.win 0).blk t).view.emb (ix2 p k)) = V c main_v0 (ix2 (row0 t p) k)
  refine congrArg (V c main_v0) (funext fun a => Fin.ext ?_)
  obtain ⟨e0, e1, -⟩ := idx_facts0 t
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem nbr0_apply (c : Dev nD) (t : Fin cfg0.N) (p : Fin 5000) (k : Fin 128) :
    iblk0 V c 1 t (ix2 p k) = V c main_v22 (ix2 (row0 t p) k) := by
  show V c main_v22 (((cfg0.win 1).blk t).view.emb (ix2 p k)) = V c main_v22 (ix2 (row0 t p) k)
  refine congrArg (V c main_v22) (funext fun a => Fin.ext ?_)
  obtain ⟨-, -, e0, e1, -⟩ := idx_facts0 t
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

theorem wown0_apply (c : Dev nD) (t : Fin cfg0.N) (k : Fin 128) (q : Fin 128) :
    iblk0 V c 2 t (ix2 k q) = V c main_arg7 (ix2 k q) := by
  show V c main_arg7 (((cfg0.win 2).blk t).view.emb (ix2 k q)) = V c main_arg7 (ix2 k q)
  refine congrArg (V c main_arg7) (funext fun a => Fin.ext ?_)
  obtain ⟨-, -, -, -, e0, e1, -⟩ := idx_facts0 t
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem wnbr0_apply (c : Dev nD) (t : Fin cfg0.N) (k : Fin 128) (q : Fin 128) :
    iblk0 V c 3 t (ix2 k q) = V c main_arg8 (ix2 k q) := by
  show V c main_arg8 (((cfg0.win 3).blk t).view.emb (ix2 k q)) = V c main_arg8 (ix2 k q)
  refine congrArg (V c main_arg8) (funext fun a => Fin.ext ?_)
  obtain ⟨-, -, -, -, -, -, e0, e1, -⟩ := idx_facts0 t
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem bias0_apply (c : Dev nD) (t : Fin cfg0.N) (q : Fin 128) :
    iblk0 V c 4 t (ix2 (0 : Fin 1) q) = V c main_v23 (ix2 (0 : Fin 1) q) := by
  show V c main_v23 (((cfg0.win 4).blk t).view.emb (ix2 (0 : Fin 1) q)) = V c main_v23 (ix2 (0 : Fin 1) q)
  refine congrArg (V c main_v23) (funext fun a => Fin.ext ?_)
  obtain ⟨-, -, -, -, -, -, -, -, e0, e1, -⟩ := idx_facts0 t
  match a with
  | ⟨0, _⟩ => show win0_4.index t (0 : Fin 2) * 1 + 1 * (0 : Fin 1).val = (0 : Fin 1).val; rw [e0]; rfl
  | ⟨1, _⟩ => show win0_4.index t (1 : Fin 2) * 128 + 1 * q.val = q.val; rw [e1]; omega

theorem out0_emb (t : Fin cfg0.N) (p : Fin 5000) (q : Fin 128) :
    ((cfg0.win 5).blk t).view.emb (ix2 p q) = ix2 (row0 t p) q := by
  refine funext fun a => Fin.ext ?_
  obtain ⟨-, -, -, -, -, -, -, -, -, -, e0, e1⟩ := idx_facts0 t
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- WHAT POINT `t` WRITES BACK is block `t` of any whole array `G` whose entry at row `5000 t + p`, column `q` is the
    layer's entry computed from the arrays the grid is entered with. -/
theorem flushed0_of (c : Dev nD) (G : S100000x128.Idx → Elt Ideal .f32)
    (hG : ∀ (t : Fin cfg0.N) (p : Fin 5000) (q : Fin 128), G (ix2 (row0 t p) q)
      = Spec.relu (Spec.dense (fun k : Fin 128 => V c main_v0 (ix2 (row0 t p) k)) (fun k => V c main_v22 (ix2 (row0 t p) k))
          (fun k => V c main_arg7 (ix2 k q)) (fun k => V c main_arg8 (ix2 k q)) (V c main_v23 (ix2 (0 : Fin 1) q))))
    (t : Fin cfg0.N) :
    (dat0 V c).flushed 5 t = ((cfg0.win 5).blk t).view.read (Elt Ideal) G := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = G (((cfg0.win 5).blk t).view.emb (ix2 p q))
  refine (Payload.relu_block_apply (iblk0 V c 0 t) (iblk0 V c 1 t) (iblk0 V c 2 t) (iblk0 V c 3 t)
    (iblk0 V c 4 t) p q).trans ?_
  rw [out0_emb, hG t p q]
  simp only [own0_apply, nbr0_apply, wown0_apply, wnbr0_apply, bias0_apply]

/-- An index of the output array is in point `t`'s block iff each coordinate is in the block's range on its axis. -/
theorem mem_out0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- The 20 blocks cover the output array: row `r` is in block `r / 5000`. -/
theorem cover0 (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 20 := N_0
  refine ⟨⟨(i 0).val / 5000, by rw [hN]; omega⟩, flush0_5 _, ?_⟩
  rw [mem_out0]
  obtain ⟨-, -, -, -, -, -, -, -, -, -, e0, e1⟩ := idx_facts0 ⟨(i 0).val / 5000, by rw [hN]; omega⟩
  intro a
  match a with
  | ⟨0, _⟩ =>
    show win0_5.index ⟨(i 0).val / 5000, _⟩ (0 : Fin 2) * 5000 ≤ (i 0).val
      ∧ (i 0).val < win0_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, _⟩ (1 : Fin 2) * 128 ≤ (i 1).val
      ∧ (i 1).val < win0_5.index ⟨(i 0).val / 5000, _⟩ (1 : Fin 2) * 128 + 128
    rw [e1]
    omega

/-- THE OUTPUT ARRAY after the grid is `G`. -/
theorem final0_of (c : Dev nD) (G : S100000x128.Idx → Elt Ideal .f32)
    (hG : ∀ (t : Fin cfg0.N) (p : Fin 5000) (q : Fin 128), G (ix2 (row0 t p) q)
      = Spec.relu (Spec.dense (fun k : Fin 128 => V c main_v0 (ix2 (row0 t p) k)) (fun k => V c main_v22 (ix2 (row0 t p) k))
          (fun k => V c main_arg7 (ix2 k q)) (fun k => V c main_arg8 (ix2 k q)) (V c main_v23 (ix2 (0 : Fin 1) q)))) :
    (dat0 V c).arrAt 5 cfg0.N = G :=
  (dat0 V c).arrAt_eq_of_cover 5 G (fun t _ => flushed0_of V c G hG t) (cover0)

/-! ## The second layer's grid: 4 blocks of 5000 rows -/

/-- The printed index maps over the grid: the row-blocked windows are at block row `t`, column block 0; the weights and
    the bias row are at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `5000 t + p` of the array. -/
def row1 (t : Fin cfg1.N) (p : Fin 5000) : Fin 20000 :=
  ⟨t.val * 5000 + p.val, by
    have ht : t.val < cfg1.N := t.isLt
    have hN : cfg1.N = 4 := N_1
    have hp : p.val < 5000 := p.isLt
    omega⟩

theorem own1_apply (c : Dev nD) (t : Fin cfg1.N) (p : Fin 5000) (k : Fin 128) :
    iblk1 V c 0 t (ix2 p k) = V c main_v25 (ix2 (row1 t p) k) := by
  show V c main_v25 (((cfg1.win 0).blk t).view.emb (ix2 p k)) = V c main_v25 (ix2 (row1 t p) k)
  refine congrArg (V c main_v25) (funext fun a => Fin.ext ?_)
  obtain ⟨e0, e1, -⟩ := idx_facts1 t
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem nbr1_apply (c : Dev nD) (t : Fin cfg1.N) (p : Fin 5000) (k : Fin 128) :
    iblk1 V c 1 t (ix2 p k) = V c main_v47 (ix2 (row1 t p) k) := by
  show V c main_v47 (((cfg1.win 1).blk t).view.emb (ix2 p k)) = V c main_v47 (ix2 (row1 t p) k)
  refine congrArg (V c main_v47) (funext fun a => Fin.ext ?_)
  obtain ⟨-, -, e0, e1, -⟩ := idx_facts1 t
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

theorem wown1_apply (c : Dev nD) (t : Fin cfg1.N) (k : Fin 128) (q : Fin 16) :
    iblk1 V c 2 t (ix2 k q) = V c main_arg10 (ix2 k q) := by
  show V c main_arg10 (((cfg1.win 2).blk t).view.emb (ix2 k q)) = V c main_arg10 (ix2 k q)
  refine congrArg (V c main_arg10) (funext fun a => Fin.ext ?_)
  obtain ⟨-, -, -, -, e0, e1, -⟩ := idx_facts1 t
  match a with
  | ⟨0, _⟩ => show win1_2.index t (0 : Fin 2) * 128 + 1 * k.val = k.val; rw [e0]; omega
  | ⟨1, _⟩ => show win1_2.index t (1 : Fin 2) * 16 + 1 * q.val = q.val; rw [e1]; omega

theorem wnbr1_apply (c : Dev nD) (t : Fin cfg1.N) (k : Fin 128) (q : Fin 16) :
    iblk1 V c 3 t (ix2 k q) = V c main_arg11 (ix2 k q) := by
  show V c main_arg11 (((cfg1.win 3).blk t).view.emb (ix2 k q)) = V c main_arg11 (ix2 k q)
  refine congrArg (V c main_arg11) (funext fun a => Fin.ext ?_)
  obtain ⟨-, -, -, -, -, -, e0, e1, -⟩ := idx_facts1 t
  match a with
  | ⟨0, _⟩ => show win1_3.index t (0 : Fin 2) * 128 + 1 * k.val = k.val; rw [e0]; omega
  | ⟨1, _⟩ => show win1_3.index t (1 : Fin 2) * 16 + 1 * q.val = q.val; rw [e1]; omega

theorem bias1_apply (c : Dev nD) (t : Fin cfg1.N) (q : Fin 16) :
    iblk1 V c 4 t (ix2 (0 : Fin 1) q) = V c main_v48 (ix2 (0 : Fin 1) q) := by
  show V c main_v48 (((cfg1.win 4).blk t).view.emb (ix2 (0 : Fin 1) q)) = V c main_v48 (ix2 (0 : Fin 1) q)
  refine congrArg (V c main_v48) (funext fun a => Fin.ext ?_)
  obtain ⟨-, -, -, -, -, -, -, -, e0, e1, -⟩ := idx_facts1 t
  match a with
  | ⟨0, _⟩ => show win1_4.index t (0 : Fin 2) * 1 + 1 * (0 : Fin 1).val = (0 : Fin 1).val; rw [e0]; rfl
  | ⟨1, _⟩ => show win1_4.index t (1 : Fin 2) * 16 + 1 * q.val = q.val; rw [e1]; omega

theorem out1_emb (t : Fin cfg1.N) (p : Fin 5000) (q : Fin 16) :
    ((cfg1.win 5).blk t).view.emb (ix2 p q) = ix2 (row1 t p) q := by
  refine funext fun a => Fin.ext ?_
  obtain ⟨-, -, -, -, -, -, -, -, -, -, e0, e1⟩ := idx_facts1 t
  match a with
  | ⟨0, _⟩ => show win1_5.index t (0 : Fin 2) * 5000 + 1 * p.val = t.val * 5000 + p.val; rw [e0]; omega
  | ⟨1, _⟩ => show win1_5.index t (1 : Fin 2) * 16 + 1 * q.val = q.val; rw [e1]; omega

/-- WHAT POINT `t` WRITES BACK is block `t` of any whole array `G` whose entry at row `5000 t + p`, column `q` is the
    layer's entry computed from the arrays the grid is entered with. -/
theorem flushed1_of (c : Dev nD) (G : S20000x16.Idx → Elt Ideal .f32)
    (hG : ∀ (t : Fin cfg1.N) (p : Fin 5000) (q : Fin 16), G (ix2 (row1 t p) q)
      = Spec.logSoftmax (fun j : Fin 16 => Spec.dense (fun k : Fin 128 => V c main_v25 (ix2 (row1 t p) k)) (fun k => V c main_v47 (ix2 (row1 t p) k))
          (fun k => V c main_arg10 (ix2 k j)) (fun k => V c main_arg11 (ix2 k j)) (V c main_v48 (ix2 (0 : Fin 1) j))) q)
    (t : Fin cfg1.N) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero hz]
  simp only [View.ld_unit_zero (S := S5000x128) hz, View.ld_unit_zero (S := S128x16) hz, View.ld_unit_zero (S := S1x16) hz]
  funext y
  obtain ⟨p, q, rfl⟩ : ∃ (p : Fin 5000) (q : Fin 16), y = ix2 p q := ⟨y 0, y 1, eq_ix2 y⟩
  show k1_pay1 (F := Ideal) (iblk1 V c 0 t) (iblk1 V c 1 t) (iblk1 V c 2 t) (iblk1 V c 3 t) (iblk1 V c 4 t) (ix2 p q)
    = G (((cfg1.win 5).blk t).view.emb (ix2 p q))
  refine (Payload.logsoftmax_block_apply (iblk1 V c 0 t) (iblk1 V c 1 t) (iblk1 V c 2 t) (iblk1 V c 3 t)
    (iblk1 V c 4 t) p q).trans ?_
  rw [out1_emb, hG t p q]
  simp only [own1_apply, nbr1_apply, wown1_apply, wnbr1_apply, bias1_apply]

/-- An index of the output array is in point `t`'s block iff each coordinate is in the block's range on its axis. -/
theorem mem_out1 (t : Fin cfg1.N) (i : S20000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v49).slice (win1_5.rect t)).set ↔ _
  rw [View.set_slice_whole, Rect.mem_set_unit]
  exact Iff.rfl

/-- The 4 blocks cover the output array: row `r` is in block `r / 5000`. -/
theorem cover1 (i : S20000x16.Idx) :
    ∃ t : Fin cfg1.N, (cfg1.win 5).flush t = true ∧ i ∈ ((cfg1.win 5).blk t).view.set := by
  have h0 : (i 0).val < 20000 := (i 0).isLt
  have h1 : (i 1).val < 16 := (i 1).isLt
  have hN : cfg1.N = 4 := N_1
  refine ⟨⟨(i 0).val / 5000, by rw [hN]; omega⟩, flush1_5 _, ?_⟩
  rw [mem_out1]
  obtain ⟨-, -, -, -, -, -, -, -, -, -, e0, e1⟩ := idx_facts1 ⟨(i 0).val / 5000, by rw [hN]; omega⟩
  intro a
  match a with
  | ⟨0, _⟩ =>
    show win1_5.index ⟨(i 0).val / 5000, _⟩ (0 : Fin 2) * 5000 ≤ (i 0).val
      ∧ (i 0).val < win1_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, _⟩ (1 : Fin 2) * 16 ≤ (i 1).val
      ∧ (i 1).val < win1_5.index ⟨(i 0).val / 5000, _⟩ (1 : Fin 2) * 16 + 16
    rw [e1]
    omega

/-- THE OUTPUT ARRAY after the grid is `G`. -/
theorem final1_of (c : Dev nD) (G : S20000x16.Idx → Elt Ideal .f32)
    (hG : ∀ (t : Fin cfg1.N) (p : Fin 5000) (q : Fin 16), G (ix2 (row1 t p) q)
      = Spec.logSoftmax (fun j : Fin 16 => Spec.dense (fun k : Fin 128 => V c main_v25 (ix2 (row1 t p) k)) (fun k => V c main_v47 (ix2 (row1 t p) k))
          (fun k => V c main_arg10 (ix2 k j)) (fun k => V c main_arg11 (ix2 k j)) (V c main_v48 (ix2 (0 : Fin 1) j))) q) :
    (dat1 V c).arrAt 5 cfg1.N = G :=
  (dat1 V c).arrAt_eq_of_cover 5 G (fun t _ => flushed1_of V c G hG t) (cover1)

end Cert.KernelIdeal.Blocks

end
-- ==== Proof.LibHostRowMax.lean ====
/-
  The host's maximum along the second axis of a matrix, read at an index. A host reduction by maximum of an [A, B]
  array along its second axis, started from a scalar initial value, has at row `r` the value of the fold of `max` over
  the entries `x (r, k)` of that row, started from the initial value's one element. On the extended reals `max` is
  commutative and associative, so the fold has no order: it is the same fold a kernel's lane reduction computes.
-/
import Idealize.ShloMosaic.PureOps.Reduce
import Idealize.ShloMosaic.PureOps.Ideal.Laws
import Idealize.ShloMosaic.Lib.ValueIdx

noncomputable section

open Idealize.ShloMosaic Idealize.ShloMosaic.ValueIdx

namespace Cert.Lib.HostRowMax

/-- The host's maximum along the second axis at row `r`: the fold of `max` over the row from the initial value. -/
theorem hostRowMax_apply {A B : ℕ} {u : Shape} (x : FVec Ideal ⟨2, ![A, B]⟩ .f32) (init : FVec Ideal u .f32)
    (h' : (⟨2, ![A, B]⟩ : Shape).ReducesTo [1] ⟨1, ![A]⟩) (h : (⟨2, ![A, B]⟩ : Shape).Reduces [1] ⟨1, ![A]⟩)
    (hu : 0 < u.numel) (r : Fin A) :
    Host.reduce FloatOps.maximumf x init h' hu (ix1 r)
      = (Finset.univ : Finset (Fin B)).fold max (init (Shape.Idx.first hu)) (fun k => x (ix2 r k)) := by
  refine (Host.reduce_eq_fold_single FloatOps.maximumf x init h' h hu (ix1 r)).trans ?_
  have hf : (x ∘ h.lift (ix1 r)) = fun k : Fin B => x (ix2 r k) := funext fun k => congrArg x (funext fun c => by
    match c with
    | ⟨0, _⟩ => exact Fin.ext rfl
    | ⟨1, _⟩ => exact Fin.ext rfl)
  exact congrArg (fun f => Finset.fold max (init (Shape.Idx.first hu)) f (Finset.univ : Finset (Fin B))) hf

end Cert.Lib.HostRowMax

end
-- ==== Proof.RefStages.lean ====
/-
  The reference, read at one entry.

  The reference computes each layer on whole arrays: the two products of the 100000 (then 20000) destination rows with
  the weight matrices, their sum, the bias added to every row, and then the maximum with zero (first layer) or the
  logarithm of the softmax along each row (second layer: the row maximum, once more the maximum with negative
  infinity — which changes nothing —, the shifted entries, the sum of their exponentials from zero, its logarithm).
  Read at entry (r, q) the first layer's result is `Spec.relu` of `Spec.dense` of row r of the sliced features and of
  the aggregated neighbour features, column q of the two weight matrices and entry q of the bias; the second layer's
  result is `Spec.logSoftmax` of the row of such combined entries. What the rows of aggregated features are (a gather,
  a weighting, two scatter-additions and a quotient) is not opened here: both programs compute them by the same
  operations.
-/
import proofs.«175145_j5119601017092_1_alg».proof.Proof.RefRead
import proofs.«175145_j5119601017092_1_alg».proof.Proof.Spec
import proofs.«175145_j5119601017092_1_alg».proof.Proof.LibHostRowMax
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx
open scoped BigOperators

variable (x0 : (⟨S500000x128, .f32⟩ : BufTy).Contents (Elt Ideal)) (x1 x2 : (⟨S2000000, .i32⟩ : BufTy).Contents (Elt Ideal))
    (x3 : (⟨S2000000, .f32⟩ : BufTy).Contents (Elt Ideal)) (x4 x5 : (⟨S1000000, .i32⟩ : BufTy).Contents (Elt Ideal))
    (x6 : (⟨S1000000, .f32⟩ : BufTy).Contents (Elt Ideal)) (x7 x8 : (⟨S128x128, .f32⟩ : BufTy).Contents (Elt Ideal))
    (x9 : (⟨S128, .f32⟩ : BufTy).Contents (Elt Ideal)) (x10 x11 : (⟨S128x16, .f32⟩ : BufTy).Contents (Elt Ideal))
    (x12 : (⟨S16, .f32⟩ : BufTy).Contents (Elt Ideal))

/-! ## Where each operation reads its operands, at an entry given by its coordinates -/

theorem lhs1_own (r : Fin 100000) (q k : Fin 128) : lidx_main_v23 (ix2 r q) k = ix2 r k :=
  funext fun a => Fin.ext (by match a with | ⟨0, _⟩ => rfl | ⟨1, _⟩ => rfl)
theorem rhs1_own (r : Fin 100000) (q k : Fin 128) : ridx_main_v23 (ix2 r q) k = ix2 k q :=
  funext fun a => Fin.ext (by match a with | ⟨0, _⟩ => rfl | ⟨1, _⟩ => rfl)
theorem lhs1_nbr (r : Fin 100000) (q k : Fin 128) : lidx_main_v24 (ix2 r q) k = ix2 r k :=
  funext fun a => Fin.ext (by match a with | ⟨0, _⟩ => rfl | ⟨1, _⟩ => rfl)
theorem rhs1_nbr (r : Fin 100000) (q k : Fin 128) : ridx_main_v24 (ix2 r q) k = ix2 k q :=
  funext fun a => Fin.ext (by match a with | ⟨0, _⟩ => rfl | ⟨1, _⟩ => rfl)
theorem bias1_idx (r : Fin 100000) (q : Fin 128) : idx_main_v26 (idx_main_v27 (ix2 r q)) = ix1 q :=
  funext fun a => Fin.ext (by match a with | ⟨0, _⟩ => rfl)

theorem lhs2_own (r : Fin 20000) (q : Fin 16) (k : Fin 128) : lidx_main_v53 (ix2 r q) k = ix2 r k :=
  funext fun a => Fin.ext (by match a with | ⟨0, _⟩ => rfl | ⟨1, _⟩ => rfl)
theorem rhs2_own (r : Fin 20000) (q : Fin 16) (k : Fin 128) : ridx_main_v53 (ix2 r q) k = ix2 k q :=
  funext fun a => Fin.ext (by match a with | ⟨0, _⟩ => rfl | ⟨1, _⟩ => rfl)
theorem lhs2_nbr (r : Fin 20000) (q : Fin 16) (k : Fin 128) : lidx_main_v54 (ix2 r q) k = ix2 r k :=
  funext fun a => Fin.ext (by match a with | ⟨0, _⟩ => rfl | ⟨1, _⟩ => rfl)
theorem rhs2_nbr (r : Fin 20000) (q : Fin 16) (k : Fin 128) : ridx_main_v54 (ix2 r q) k = ix2 k q :=
  funext fun a => Fin.ext (by match a with | ⟨0, _⟩ => rfl | ⟨1, _⟩ => rfl)
theorem bias2_idx (r : Fin 20000) (q : Fin 16) : idx_main_v56 (idx_main_v57 (ix2 r q)) = ix1 q :=
  funext fun a => Fin.ext (by match a with | ⟨0, _⟩ => rfl)
theorem rowmax_idx (r : Fin 20000) (q : Fin 16) : idx_main_call1_v3 (idx_main_call1_v4 (ix2 r q)) = ix1 r :=
  funext fun a => Fin.ext (by match a with | ⟨0, _⟩ => rfl)
theorem logsum_idx (r : Fin 20000) (q : Fin 16) : idx_main_call1_v8 (idx_main_call1_v10 (ix2 r q)) = ix1 r :=
  funext fun a => Fin.ext (by match a with | ⟨0, _⟩ => rfl)
theorem lane_idx (r : Fin 20000) (k : Fin 16) : idx_main_call1_v7 (ix1 r) k = ix2 r k :=
  funext fun a => Fin.ext (by match a with | ⟨0, _⟩ => rfl | ⟨1, _⟩ => rfl)

/-! ## The first layer -/

/-- THE FIRST LAYER'S RESULT at (r, q): the combined entry, cut off below at zero. -/
theorem hidden_apply (r : Fin 100000) (q : Fin 128) :
    val_main_v29 (F := Ideal) x0 x1 x2 x3 x7 x8 x9 (ix2 r q)
      = Spec.relu (Spec.dense (fun k : Fin 128 => val_main_v0 (F := Ideal) x0 (ix2 r k))
          (fun k => val_main_v22 (F := Ideal) x0 x1 x2 x3 (ix2 r k))
          (fun k => x7 (ix2 k q)) (fun k => x8 (ix2 k q)) (x9 (ix1 q))) := by
  rw [val_main_v29_apply, val_main_v28_apply, val_main_v25_apply, val_main_v23_apply, val_main_v24_apply,
    val_main_v27_apply, val_main_v26_apply, val_main_call0_v0_apply, val_main_call0_cst_apply]
  simp only [lhs1_own, rhs1_own, lhs1_nbr, rhs1_nbr, bias1_idx]
  rfl

/-! ## The second layer -/

/-- The combined entry (r, j) of the second layer, before the softmax. -/
theorem combined_apply (r : Fin 20000) (j : Fin 16) :
    val_main_v58 (F := Ideal) x0 x1 x2 x3 x4 x5 x6 x7 x8 x9 x10 x11 x12 (ix2 r j)
      = Spec.dense (fun k : Fin 128 => val_main_v30 (F := Ideal) x0 x1 x2 x3 x7 x8 x9 (ix2 r k))
          (fun k => val_main_v52 (F := Ideal) x0 x1 x2 x3 x4 x5 x6 x7 x8 x9 (ix2 r k))
          (fun k => x10 (ix2 k j)) (fun k => x11 (ix2 k j)) (x12 (ix1 j)) := by
  rw [val_main_v58_apply, val_main_v55_apply, val_main_v53_apply, val_main_v54_apply, val_main_v57_apply,
    val_main_v56_apply]
  simp only [lhs2_own, rhs2_own, lhs2_nbr, rhs2_nbr, bias2_idx]
  rfl

/-- The row maximum the reference subtracts: the host's reduction, then once more the maximum with negative
    infinity, is the fold of `max` over the row from negative infinity. -/
theorem rowmax_apply (r : Fin 20000) :
    val_main_call1_v2 (F := Ideal) x0 x1 x2 x3 x4 x5 x6 x7 x8 x9 x10 x11 x12 (ix1 r)
      = Spec.rowMax (fun j : Fin 16 => val_main_v58 (F := Ideal) x0 x1 x2 x3 x4 x5 x6 x7 x8 x9 x10 x11 x12 (ix2 r j)) := by
  rw [val_main_call1_v2_apply, val_main_call1_v1_apply, val_main_call1_cst_0_apply]
  unfold val_main_call1_v0
  rw [Cert.Lib.HostRowMax.hostRowMax_apply (A := 20000) (B := 16) _ _ reducesTo_S20000x16_S20000_d1 (by decide) h_S_ r]
  exact Spec.max_start_rowMax _

/-- The shifted entry (r, k): the combined entry less the row maximum. -/
theorem shifted_apply (r : Fin 20000) (k : Fin 16) :
    val_main_call1_v5 (F := Ideal) x0 x1 x2 x3 x4 x5 x6 x7 x8 x9 x10 x11 x12 (ix2 r k)
      = val_main_v58 (F := Ideal) x0 x1 x2 x3 x4 x5 x6 x7 x8 x9 x10 x11 x12 (ix2 r k)
        - Spec.rowMax (fun j : Fin 16 => val_main_v58 (F := Ideal) x0 x1 x2 x3 x4 x5 x6 x7 x8 x9 x10 x11 x12 (ix2 r j)) := by
  rw [val_main_call1_v5_apply, val_main_call1_v4_apply, val_main_call1_v3_apply, rowmax_idx, rowmax_apply]
  rfl

/-- THE REFERENCE'S RESULT at (r, q): the logarithm of the softmax of row r of the combined entries. -/
theorem result_apply (r : Fin 20000) (q : Fin 16) :
    val_main_v59 (F := Ideal) x0 x1 x2 x3 x4 x5 x6 x7 x8 x9 x10 x11 x12 (ix2 r q)
      = Spec.logSoftmax (fun j : Fin 16 =>
          Spec.dense (fun k : Fin 128 => val_main_v30 (F := Ideal) x0 x1 x2 x3 x7 x8 x9 (ix2 r k))
            (fun k => val_main_v52 (F := Ideal) x0 x1 x2 x3 x4 x5 x6 x7 x8 x9 (ix2 r k))
            (fun k => x10 (ix2 k j)) (fun k => x11 (ix2 k j)) (x12 (ix1 j))) q := by
  rw [val_main_v59_apply, val_main_call1_v10_apply, val_main_call1_v9_apply, val_main_call1_v8_apply, logsum_idx,
    val_main_call1_v7_apply, val_main_call1_cst_1_apply]
  simp only [lane_idx, val_main_call1_v6_apply, shifted_apply, combined_apply]
  unfold Spec.logSoftmax
  rw [Ideal.ofBits_def, Ideal.ofBits_zero_f32, zero_add]
  rfl

end Cert.ReferenceIdeal.Stages

end
-- ==== Proof.KernelRun.lean ====
/-
  The idealized kernel's whole run, with its result read back.

  The program is four stretches in a row: host operations, the first layer's grid of row blocks, host operations
  again, the second layer's grid. Every weakly fair execution goes through them in order and ends with every buffer of
  the device at the contents the last stretch leaves; in particular the result buffer holds what the second grid's
  write-backs leave in it, and no argument array has changed. The contents after each stretch are the fold
  `W0 … W4` of the generated frame module.
-/
import proofs.«175145_j5119601017092_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at what the last
    stretch leaves in it, and the thirteen argument arrays end as launched. -/
theorem run_result : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.WholeRun

end
-- ==== Proof.Layers.lean ====
/-
  The kernel's two layers against the reference's two layers.

  Both programs begin with the same host operations on the arguments: the first 100000 rows of the features, and
  the aggregated neighbour features (rows gathered along the edges, weighted, scatter-added per destination and
  divided by the larger of the in-degree and one). The kernel then runs its first grid where the reference multiplies,
  adds the bias and takes the maximum with zero: entry by entry both are `Spec.relu` of `Spec.dense` of the same rows, so
  the array the first grid leaves is the reference's hidden layer. Both programs apply the same host operations to that
  hidden layer (its first 20000 rows; its rows gathered, weighted, scatter-added and normalised), and the kernel's second
  grid leaves, entry by entry, `Spec.logSoftmax` of the same combined rows as the reference's result. No law of the
  extended reals is needed beyond `max (-∞) M = M` for a maximum `M` taken from `-∞`: the two sides are the same sums,
  maxima, exponentials and logarithm of the same entries.
-/
import proofs.«175145_j5119601017092_1_alg».proof.Proof.Blocks
import proofs.«175145_j5119601017092_1_alg».proof.Proof.RefStages
import proofs.«175145_j5119601017092_1_alg».proof.Proof.KernelRun
import Idealize.ShloMosaic.Lib.StableHlo.Run
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL Idealize.SL.Sem Idealize.ShloMosaic.StableHlo
open Cert.ReferenceIdeal.ReadP (val_main_v0 val_main_v22 val_main_v29 val_main_v30 val_main_v52 val_main_v59)

variable (m : (ℓ : Loc nD τ sig) → Buf (Elt Ideal) ℓ) (ρ : Dev nD → PrngReg)

/-- An argument array as launched. -/
abbrev A (c : Dev nD) (b : Ref sig .tc) : Buf (Elt Ideal) ((c.tc : Thread nD τ).loc b) := m ((c.tc : Thread nD τ).loc b)

/-- The hidden layer as the reference computes it from the launched arguments. -/
def hidden (c : Dev nD) : S100000x128.Idx → Elt Ideal .f32 :=
  val_main_v29 (F := Ideal) (A m c main_arg0) (A m c main_arg1) (A m c main_arg2) (A m c main_arg3) (A m c main_arg7) (A m c main_arg8) (A m c main_arg9)

/-- The result as the reference computes it from the launched arguments. -/
def result (c : Dev nD) : S20000x16.Idx → Elt Ideal .f32 :=
  val_main_v59 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12)

/-! ## The host operations in front of the first grid -/

theorem V1_own (c : Dev nD) : V1 m ρ c main_v0 = val_main_v0 (F := Ideal) (A m c main_arg0) := by
  show StableHlo.after hostOps0 (W0 m ρ c) (Proc.devRef .tc main_v0) = _
  after_results_simp
  rfl

theorem V1_nbr (c : Dev nD) :
    V1 m ρ c main_v22 = val_main_v22 (F := Ideal) (A m c main_arg0) (A m c main_arg1) (A m c main_arg2) (A m c main_arg3) := by
  show StableHlo.after hostOps0 (W0 m ρ c) (Proc.devRef .tc main_v22) = _
  after_results_simp
  rfl

theorem V1_wown (c : Dev nD) : V1 m ρ c main_arg7 = A m c main_arg7 := by
  show StableHlo.after hostOps0 (W0 m ρ c) (Proc.devRef .tc main_arg7) = _
  after_results_simp <;> rfl

theorem V1_wnbr (c : Dev nD) : V1 m ρ c main_arg8 = A m c main_arg8 := by
  show StableHlo.after hostOps0 (W0 m ρ c) (Proc.devRef .tc main_arg8) = _
  after_results_simp <;> rfl

/-- The bias recast as a row reads the bias. -/
theorem V1_bias (c : Dev nD) (q : Fin 128) : V1 m ρ c main_v23 (ix2 (0 : Fin 1) q) = A m c main_arg9 (ix1 q) := by
  have e : V1 m ρ c main_v23 = fun i => shapeCast S1x128 (A m c main_arg9) shapeCasts_S128_S1x128 i := by
    show StableHlo.after hostOps0 (W0 m ρ c) (Proc.devRef .tc main_v23) = _
    after_results_simp
    rfl
  rw [e]
  exact shapeCast_a_1a_apply (a := 128) _ _ (0 : Fin 1) q

/-! ## The first grid leaves the reference's hidden layer -/

theorem hidden_final (c : Dev nD) : (dat0 (V1 m ρ) c).arrAt 5 cfg0.N = hidden m c :=
  Blocks.final0_of (V1 m ρ) c (hidden m c) fun t p q => by
    rw [V1_own, V1_nbr, V1_wown, V1_wnbr, V1_bias]
    exact Cert.ReferenceIdeal.Stages.hidden_apply _ _ _ _ _ _ _ (Blocks.row0 t p) q

theorem W2_hidden (c : Dev nD) : W2 m ρ c (Proc.devRef .tc main_v24) = hidden m c :=
  (W2_arr m ρ c 5).trans (hidden_final m ρ c)

theorem W2_arg4 (c : Dev nD) : W2 m ρ c (Proc.devRef .tc main_arg4) = A m c main_arg4 :=
  (W2_of_ne m ρ c main_arg4 (by decide)).trans (by
    show StableHlo.after hostOps0 (W0 m ρ c) (Proc.devRef .tc main_arg4) = _
    after_results_simp <;> rfl)

theorem W2_arg5 (c : Dev nD) : W2 m ρ c (Proc.devRef .tc main_arg5) = A m c main_arg5 :=
  (W2_of_ne m ρ c main_arg5 (by decide)).trans (by
    show StableHlo.after hostOps0 (W0 m ρ c) (Proc.devRef .tc main_arg5) = _
    after_results_simp <;> rfl)

theorem W2_arg6 (c : Dev nD) : W2 m ρ c (Proc.devRef .tc main_arg6) = A m c main_arg6 :=
  (W2_of_ne m ρ c main_arg6 (by decide)).trans (by
    show StableHlo.after hostOps0 (W0 m ρ c) (Proc.devRef .tc main_arg6) = _
    after_results_simp <;> rfl)

theorem W2_arg10 (c : Dev nD) : W2 m ρ c (Proc.devRef .tc main_arg10) = A m c main_arg10 :=
  (W2_of_ne m ρ c main_arg10 (by decide)).trans (by
    show StableHlo.after hostOps0 (W0 m ρ c) (Proc.devRef .tc main_arg10) = _
    after_results_simp <;> rfl)

theorem W2_arg11 (c : Dev nD) : W2 m ρ c (Proc.devRef .tc main_arg11) = A m c main_arg11 :=
  (W2_of_ne m ρ c main_arg11 (by decide)).trans (by
    show StableHlo.after hostOps0 (W0 m ρ c) (Proc.devRef .tc main_arg11) = _
    after_results_simp <;> rfl)

theorem W2_arg12 (c : Dev nD) : W2 m ρ c (Proc.devRef .tc main_arg12) = A m c main_arg12 :=
  (W2_of_ne m ρ c main_arg12 (by decide)).trans (by
    show StableHlo.after hostOps0 (W0 m ρ c) (Proc.devRef .tc main_arg12) = _
    after_results_simp <;> rfl)

/-! ## The host operations between the grids -/

theorem V3_own (c : Dev nD) : V3 m ρ c main_v25 = val_main_v30 (F := Ideal) (A m c main_arg0) (A m c main_arg1) (A m c main_arg2) (A m c main_arg3) (A m c main_arg7) (A m c main_arg8) (A m c main_arg9) := by
  show StableHlo.after hostOps1 (W2 m ρ c) (Proc.devRef .tc main_v25) = _
  after_results_simp
  rw [W2_hidden]
  rfl

theorem V3_nbr (c : Dev nD) : V3 m ρ c main_v47 = val_main_v52 (F := Ideal) (A m c main_arg0) (A m c main_arg1) (A m c main_arg2) (A m c main_arg3) (A m c main_arg4) (A m c main_arg5) (A m c main_arg6) (A m c main_arg7) (A m c main_arg8) (A m c main_arg9) := by
  show StableHlo.after hostOps1 (W2 m ρ c) (Proc.devRef .tc main_v47) = _
  after_results_simp
  rw [W2_hidden, W2_arg4, W2_arg5, W2_arg6]
  rfl

theorem V3_wown (c : Dev nD) : V3 m ρ c main_arg10 = A m c main_arg10 := by
  show StableHlo.after hostOps1 (W2 m ρ c) (Proc.devRef .tc main_arg10) = _
  after_results_simp
  exact W2_arg10 m ρ c

theorem V3_wnbr (c : Dev nD) : V3 m ρ c main_arg11 = A m c main_arg11 := by
  show StableHlo.after hostOps1 (W2 m ρ c) (Proc.devRef .tc main_arg11) = _
  after_results_simp
  exact W2_arg11 m ρ c

theorem V3_bias (c : Dev nD) (q : Fin 16) : V3 m ρ c main_v48 (ix2 (0 : Fin 1) q) = A m c main_arg12 (ix1 q) := by
  have e : V3 m ρ c main_v48 = fun i => shapeCast S1x16 (A m c main_arg12) shapeCasts_S16_S1x16 i := by
    show StableHlo.after hostOps1 (W2 m ρ c) (Proc.devRef .tc main_v48) = _
    after_results_simp
    rw [W2_arg12]
    rfl
  rw [e]
  exact shapeCast_a_1a_apply (a := 16) _ _ (0 : Fin 1) q

/-! ## The second grid leaves the reference's result -/

theorem result_final (c : Dev nD) : (dat1 (V3 m ρ) c).arrAt 5 cfg1.N = result m c :=
  Blocks.final1_of (V3 m ρ) c (result m c) fun t p q => by
    rw [V3_own, V3_nbr, V3_wown, V3_wnbr]
    refine (Cert.ReferenceIdeal.Stages.result_apply _ _ _ _ _ _ _ _ _ _ _ _ _ (Blocks.row1 t p) q).trans ?_
    exact congrArg (fun f => Spec.logSoftmax f q) (funext fun j => by rw [V3_bias])

theorem W4_result (c : Dev nD) : W4 m ρ c (Proc.devRef .tc main_v49) = result m c :=
  (W4_arr m ρ c 5).trans (result_final m ρ c)

/-- THE KERNEL'S RUN: every weakly fair execution terminates without a fault, the result buffer holding the
    reference's function of the launched arguments and the arguments unchanged. -/
theorem run : θ_run defs (onTc (τ := τ) (main (F := Ideal))) ⟨m, fun _ => 0, ρ⟩ (fun r => ∀ c : Dev nD,
      r.2.mem ((c.tc : Thread nD τ).loc main_v49) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (W4_result m ρ c), (h c).2⟩)
    (Cert.KernelIdeal.WholeRun.run_result (F := Ideal) m ρ)

end Cert.KernelIdeal.Layers

end
-- ==== Proof.lean ====
/-
  Two layers of mean-aggregating graph convolution, the kernel against its reference, on the extended reals.

  Both programs take node features, two weighted edge lists, two pairs of weight matrices and two biases. Each layer
  aggregates, for every destination node, the weighted features of its in-neighbours (a gather along the edges, a
  product with the edge weights, a scatter-addition per destination, a division by the larger of the in-degree and
  one), combines the destination's own features and the aggregate with the layer's two weight matrices and its bias,
  and applies an activation: the maximum with zero after the first layer, the logarithm of the softmax along each row
  after the second. The aggregation is the same host operations in both programs. The combination and the activation
  are, in the kernel, a grid of blocks of 5000 destination rows whose body multiplies on the matrix unit after a
  change of float format, and in the reference whole-array products, sums and reductions.

  At Ideal a change of float format is the identity, a matrix product into a zero accumulator is the sum over the
  contracted coordinate, and a reduction is the sum or the fold of `max` over its axis; so each entry of each layer
  is one expression (`Spec.relu` or `Spec.logSoftmax` of `Spec.dense`) of the same entries of the same arrays in both
  programs (Proof/Payload.lean for the kernel bodies, Proof/RefStages.lean for the reference), the blocks of a grid
  cover its output array (Proof/Blocks.lean), and the result arrays are equal (Proof/Layers.lean). The one law used is
  `max (-∞) M = M` for a maximum `M` taken from `-∞`: no input needs to be finite, and the precondition is not opened.

  The three frames: the two kernel programs' are the generated frame certificates; the reference's is its run with the
  result dropped. The idealization rewrote no operation, so `preserves` is `True`.
-/
import proofs.«175145_j5119601017092_1_alg».proof.Defs
import proofs.«175145_j5119601017092_1_alg».proof.Proof.Gen.Kernel
import proofs.«175145_j5119601017092_1_alg».proof.Proof.Gen.Kernel.Frame
import proofs.«175145_j5119601017092_1_alg».proof.Proof.Gen.KernelIdeal
import proofs.«175145_j5119601017092_1_alg».proof.Proof.Gen.KernelIdeal.Frame
import proofs.«175145_j5119601017092_1_alg».proof.Proof.Gen.ReferenceIdeal
import proofs.«175145_j5119601017092_1_alg».proof.Proof.Gen.Pre_finite_inputs
import proofs.«175145_j5119601017092_1_alg».proof.Proof.RefRun
import proofs.«175145_j5119601017092_1_alg».proof.Proof.RefRead
import proofs.«175145_j5119601017092_1_alg».proof.Proof.Layers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the thirteen arguments both programs end with the reference's function of them in
    the result buffer: the kernel by `Layers.run`, the reference by its own run. -/
theorem algebraic : Cert.algebraic_KernelIdeal_ReferenceIdeal := by
  intro m ρ m' ρ' _ hagree
  refine ⟨fun c => Cert.KernelIdeal.Layers.result m c, Cert.KernelIdeal.Layers.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v59_eq, h0, h1, h2, h3, h4, h5, h6, h7, h8, h9, h10, h11, h12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
